-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S10x256 .f32) (main_arg12 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S10x256 .f32 := Host.absf main_arg11
  let main_cst_16 : FVec F S_ .f32 := constant S_ .f32 0x7F800000#32
  let main_v45 : FVec F S10x256 .f32 := broadcastInDim S10x256 ![] bcast_S_S10x256 main_cst_16
  let main_v46 : IVec S10x256 1 := cmpf .olt main_v44 main_v45
  let main_c_17 : IVec S_ 1 := constantI S_ 1 1#1
  let main_v47 : IVec S_ 1 := (fun x v => Host.reduce IntOp.andi x v reducesTo_S10x256_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S10x256 .f32) (main_arg12 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S256x128 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S10x256 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S256x10 : Shape := ⟨2, ![256, 10]⟩
abbrev S64x10 : Shape := ⟨2, ![64, 10]⟩
abbrev S1x10 : Shape := ⟨2, ![1, 10]⟩

abbrev nBuf : Space → Nat
  | .hbm => 78
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S10x256, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S128x256, .f32⟩
  | .hbm, ⟨32, _⟩ => ⟨S256x256, .f32⟩
  | .hbm, ⟨33, _⟩ => ⟨S1x256, .f32⟩
  | .hbm, ⟨34, _⟩ => ⟨S1x256, .f32⟩
  | .hbm, ⟨35, _⟩ => ⟨S50000x256, .f32⟩
  | .hbm, ⟨36, _⟩ => ⟨S50000x256, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .bf16⟩
  | .hbm, ⟨46, _⟩ => ⟨S800000x256, .f32⟩
  | .hbm, ⟨47, _⟩ => ⟨S_, .f32⟩
  | .hbm, ⟨48, _⟩ => ⟨S50000x256, .f32⟩
  | .hbm, ⟨49, _⟩ => ⟨S800000x1, .i32⟩
  | .hbm, ⟨50, _⟩ => ⟨S50000x256, .f32⟩
  | .hbm, ⟨51, _⟩ => ⟨S50000x256, .f32⟩
  | .hbm, ⟨52, _⟩ => ⟨S256x256, .f32⟩
  | .hbm, ⟨53, _⟩ => ⟨S256x256, .f32⟩
  | .hbm, ⟨54, _⟩ => ⟨S1x256, .f32⟩
  | .hbm, ⟨55, _⟩ => ⟨S1x256, .f32⟩
  | .hbm, ⟨56, _⟩ => ⟨S50000x256, .f32⟩
  | .hbm, ⟨57, _⟩ => ⟨S_, .f32⟩
  | .hbm, ⟨58, _⟩ => ⟨S64x256, .f32⟩
  | .hbm, ⟨59, _⟩ => ⟨S50000x1, .i32⟩
  | .hbm, ⟨60, _⟩ => ⟨S64x256, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S64, .f32⟩
  | .hbm, ⟨65, _⟩ => ⟨S50000x1, .i32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S64x256, .f32⟩
  | .hbm, ⟨72, _⟩ => ⟨S64x256, .f32⟩
  | .hbm, ⟨73, _⟩ => ⟨S256x10, .f32⟩
  | .hbm, ⟨74, _⟩ => ⟨S64x10, .f32⟩
  | .hbm, ⟨75, _⟩ => ⟨S1x10, .f32⟩
  | .hbm, ⟨76, _⟩ => ⟨S64x10, .f32⟩
  | .hbm, ⟨77, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  transposes_S256x256_S256x256_1_0 : S256x256.Transposes [1, 0] S256x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S10x256_S256x10_1_0 : S10x256.Transposes [1, 0] S256x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S256x10 : Shape := ⟨2, ![256, 10]⟩
abbrev S64x10 : Shape := ⟨2, ![64, 10]⟩
abbrev S1x10 : Shape := ⟨2, ![1, 10]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S10x256, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S128x256, .f32⟩
  | .hbm, ⟨32, _⟩ => ⟨S50000x256, .f32⟩
  | .hbm, ⟨33, _⟩ => ⟨S1x256, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S50000x256, .f32⟩
  | .hbm, ⟨38, _⟩ => ⟨S50000x256, .f32⟩
  | .hbm, ⟨39, _⟩ => ⟨S256x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S1x800000, .i32⟩
  | .hbm, ⟨45, _⟩ => ⟨S800000, .i32⟩
  | .hbm, ⟨46, _⟩ => ⟨S1x800000, .i32⟩
  | .hbm, ⟨47, _⟩ => ⟨S800000, .i32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S50000x256, .f32⟩
  | .hbm, ⟨62, _⟩ => ⟨S256x256, .f32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S256x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S64x256, .f32⟩
  | .hbm, ⟨77, _⟩ => ⟨S50000x1, .i32⟩
  | .hbm, ⟨78, _⟩ => ⟨S64x256, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S64, .f32⟩
  | .hbm, ⟨83, _⟩ => ⟨S50000x1, .i32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x256, .f32⟩
  | .hbm, ⟨90, _⟩ => ⟨S64x256, .f32⟩
  | .hbm, ⟨91, _⟩ => ⟨S256x10, .f32⟩
  | .hbm, ⟨92, _⟩ => ⟨S64x10, .f32⟩
  | .hbm, ⟨93, _⟩ => ⟨S1x10, .f32⟩
  | .hbm, ⟨94, _⟩ => ⟨S64x10, .f32⟩
  | .hbm, ⟨95, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_1 : Ref sig .tc := ⟨.hbm, 48, rfl⟩
abbrev main_v30 : Ref sig .tc := ⟨.hbm, 49, rfl⟩
abbrev main_v31 : Ref sig .tc := ⟨.hbm, 50, rfl⟩
abbrev main_c_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S256x256_S256x256_1_0 : S256x256.Transposes [1, 0] S256x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S10x256_S256x10_1_0 : S10x256.Transposes [1, 0] S256x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KernelRun.lean ====
/-
  The idealized kernel's whole run, with its result named.

  The program is five segments: host operations, the first kernel region, host operations, the second kernel region, host
  operations.  The buffer contents at each boundary are a fold through the program: a host stretch applies its operations
  to the contents before it, a region replaces its arrays by what its write-backs leave.  Every weakly fair execution
  ends with every buffer that lives for the whole program at the last boundary's contents; in particular the result
  buffer holds the last boundary's contents there, and the argument arrays hold what they were launched with.
-/
import proofs.«137430_j395136991531_2_alg».proof.Proof.PatchedKernelIdealFrame

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with every buffer that lives for the whole program at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result named: the result buffer ends at the last boundary's contents there, and every argument array
    as launched. -/
theorem run_named : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v54 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c)⟩)
    (run_all m ρ)

end Cert.KernelIdeal.Whole

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Layer.lean ====
/-
  One dense layer pair of the network, as a function of whole arrays at the ideal values.

  For an input z of shape [R, K], weights wa of shape [K, H] and wb of shape [H, H2], and one-row biases ba of shape
  [1, H] and bb of shape [1, H2], the layer is

      layer z wa ba wb bb (r, c) = (sum over j of max (sum over k of z (r, k) * wa (k, j) + ba (0, j)) 0 * wb (j, c)) + bb (0, c).

  Row r of the result depends on row r of z only, so the layer of a block of rows is the matching block of rows of the
  layer of the whole array: that is what lets a kernel compute it one row block at a time.
-/
import proofs.«137430_j395136991531_2_alg».proof.Proof.LibPlainDot

noncomputable section

namespace Cert.Layer

open Idealize.ShloMosaic Idealize.ShloMosaic.ValueIdx Cert.Lib.PlainDot
open scoped BigOperators

variable {R R' K H H2 : Nat}

/-- The index (0, c) of a one-row array, for an output index (r, c). -/
abbrev biasIdx (j : (⟨2, ![R, H]⟩ : Shape).Idx) : (⟨2, ![1, H]⟩ : Shape).Idx := fun a => match a with
  | ⟨0, _⟩ => ⟨0, Nat.one_pos⟩
  | ⟨1, _⟩ => ⟨(j 1).val, (j 1).isLt⟩

/-- The hidden activations: max (z · wa + ba) 0. -/
def hidden (z : (⟨2, ![R, K]⟩ : Shape).Idx → EReal) (wa : (⟨2, ![K, H]⟩ : Shape).Idx → EReal)
    (ba : (⟨2, ![1, H]⟩ : Shape).Idx → EReal) : (⟨2, ![R, H]⟩ : Shape).Idx → EReal :=
  fun i => max (mm z wa i + ba (biasIdx i)) 0

/-- The layer: hidden · wb + bb. -/
def layer (z : (⟨2, ![R, K]⟩ : Shape).Idx → EReal) (wa : (⟨2, ![K, H]⟩ : Shape).Idx → EReal)
    (ba : (⟨2, ![1, H]⟩ : Shape).Idx → EReal) (wb : (⟨2, ![H, H2]⟩ : Shape).Idx → EReal)
    (bb : (⟨2, ![1, H2]⟩ : Shape).Idx → EReal) : (⟨2, ![R, H2]⟩ : Shape).Idx → EReal :=
  fun j => mm (hidden z wa ba) wb j + bb (biasIdx j)

/-- A matrix product's entry depends on the left operand's matching row only. -/
theorem mm_rows (x : (⟨2, ![R, K]⟩ : Shape).Idx → EReal) (x' : (⟨2, ![R', K]⟩ : Shape).Idx → EReal)
    (w : (⟨2, ![K, H]⟩ : Shape).Idx → EReal) (j : (⟨2, ![R, H]⟩ : Shape).Idx) (j' : (⟨2, ![R', H]⟩ : Shape).Idx)
    (hx : ∀ k : Fin K, x' (rowIdx j' k) = x (rowIdx j k)) (hc : (j' 1).val = (j 1).val) :
    mm x' w j' = mm x w j := by
  unfold mm
  refine Finset.sum_congr rfl fun k _ => ?_
  have ec : colIdx j' k = colIdx j k := funext fun a => Fin.ext (by
    match a with
    | ⟨0, _⟩ => rfl
    | ⟨1, _⟩ => exact hc)
  rw [hx k, ec]

/-- The layer's entry depends on the input's matching row only. -/
theorem layer_rows (z : (⟨2, ![R, K]⟩ : Shape).Idx → EReal) (z' : (⟨2, ![R', K]⟩ : Shape).Idx → EReal)
    (wa : (⟨2, ![K, H]⟩ : Shape).Idx → EReal) (ba : (⟨2, ![1, H]⟩ : Shape).Idx → EReal)
    (wb : (⟨2, ![H, H2]⟩ : Shape).Idx → EReal) (bb : (⟨2, ![1, H2]⟩ : Shape).Idx → EReal)
    (j : (⟨2, ![R, H2]⟩ : Shape).Idx) (j' : (⟨2, ![R', H2]⟩ : Shape).Idx)
    (hz : ∀ k : Fin K, z' (rowIdx j' k) = z (rowIdx j k)) (hc : (j' 1).val = (j 1).val) :
    layer z' wa ba wb bb j' = layer z wa ba wb bb j := by
  unfold layer
  have eb : biasIdx j' = biasIdx j := funext fun a => Fin.ext (by
    match a with
    | ⟨0, _⟩ => rfl
    | ⟨1, _⟩ => exact hc)
  rw [eb]
  refine congrArg (· + bb (biasIdx j)) (mm_rows _ _ wb j j' (fun k => ?_) hc)
  unfold hidden
  have eb2 : biasIdx (rowIdx j' k : (⟨2, ![R', H]⟩ : Shape).Idx) = biasIdx (rowIdx j k : (⟨2, ![R, H]⟩ : Shape).Idx) :=
    funext fun a => Fin.ext (by
      match a with
      | ⟨0, _⟩ => rfl
      | ⟨1, _⟩ => rfl)
  rw [eb2]
  refine congrArg (fun v => max (v + ba (biasIdx (rowIdx j k : (⟨2, ![R, H]⟩ : Shape).Idx))) 0)
    (mm_rows z z' wa (rowIdx j k) (rowIdx j' k) (fun k2 => ?_) rfl)
  have e1 : rowIdx (rowIdx j' k : (⟨2, ![R', H]⟩ : Shape).Idx) k2 = (rowIdx j' k2 : (⟨2, ![R', K]⟩ : Shape).Idx) :=
    funext fun a => Fin.ext (by
      match a with
      | ⟨0, _⟩ => rfl
      | ⟨1, _⟩ => rfl)
  have e2 : rowIdx (rowIdx j k : (⟨2, ![R, H]⟩ : Shape).Idx) k2 = (rowIdx j k2 : (⟨2, ![R, K]⟩ : Shape).Idx) :=
    funext fun a => Fin.ext (by
      match a with
      | ⟨0, _⟩ => rfl
      | ⟨1, _⟩ => rfl)
  rw [e1, e2]
  exact hz k2

end Cert.Layer

end
-- ==== Proof.KernelBlock.lean ====
/-
  What one grid point of each kernel computes: the layer of its loaded blocks.

  The body of either kernel loads a block of 2000 rows of the input, the two weight matrices (already transposed) and the
  two one-row biases, and stores   (max (z · wa + ba) 0) · wb + bb   — two matrix products into zero accumulators, the
  biases spread over the rows, the changes of float format the identity at the ideal values.  So the block the body leaves
  is `Cert.Layer.layer` of the loaded blocks, entry by entry.
-/
import proofs.«137430_j395136991531_2_alg».proof.Proof.PatchedKernelIdealFrame
import proofs.«137430_j395136991531_2_alg».proof.Proof.Layer
import Idealize.ShloMosaic.Lib.Pipeline.Value
import Idealize.ShloMosaic.Lib.ValueIdx

noncomputable section

namespace Cert.KernelIdeal.Block

open Cert.KernelIdeal Cert.KernelIdeal.Gen Cert.KernelIdeal.GenP Idealize.ShloMosaic Idealize.ShloMosaic.ValueIdx Cert.Layer Cert.Lib.PlainDot
theorem origin : (![0, 0] : Fin 2 → Nat) = fun _ => 0 := funext fun a => by fin_cases a <;> rfl

theorem d128_plain : dot_S2000x128_S128x256_S2000x256_1_0_0_1_n_n = DotDims.plain 2000 128 256 := rfl
theorem d256_plain : dot_S2000x256_S256x256_S2000x256_1_0_0_1_n_n = DotDims.plain 2000 256 256 := rfl

/-- A one-row array spread over 2000 rows, read at (r, c), is the row's entry c. -/
theorem spread_apply (b : FVec Ideal S1x256 .f32) (j : S2000x256.Idx) :
    broadcastTo S2000x256 (shapeCast S1x256 b shapeCasts_S1x256_S1x256) broadcasts_S1x256_S2000x256 j = b (biasIdx j) := by
  rw [shapeCast_self]
  exact broadcastTo_apply b _ j (biasIdx j) (fun a => by
    match a with
    | ⟨0, _⟩ => rfl
    | ⟨1, _⟩ => rfl)

/-- The scalar zero spread over the block is 0 everywhere. -/
theorem zero_apply (j : S2000x256.Idx) :
    (broadcast S2000x256 (Scalar.ofBits (F := Ideal) .f32 0x00000000#32) : FVec Ideal S2000x256 .f32) j = 0 := by
  rw [broadcast_apply]
  exact Ideal.ofBits_zero_f32

/-- The first kernel's stored value is the layer of its loaded blocks (input width 128). -/
theorem pay0_eq (x0 : Vec Ideal S2000x128 .f32) (x1 : Vec Ideal S128x256 .f32) (x2 : Vec Ideal S1x256 .f32)
    (x3 : Vec Ideal S256x256 .f32) (x4 : Vec Ideal S1x256 .f32) :
    k0_pay1 (F := Ideal) x0 x1 x2 x3 x4 = layer x0 x1 x2 x3 x4 := by
  have e0 : (truncf .bf16 (shapeCast S2000x128 x0 shapeCasts_S2000x128_S2000x128) bitsLt_bf16_f32 : FVec Ideal S2000x128 .bf16) = x0 := by
    rw [shapeCast_self]; rfl
  have e1 : (truncf .bf16 (shapeCast S128x256 x1 shapeCasts_S128x256_S128x256) bitsLt_bf16_f32 : FVec Ideal S128x256 .bf16) = x1 := by
    rw [shapeCast_self]; rfl
  have e3 : (truncf .bf16 (shapeCast S256x256 x3 shapeCasts_S256x256_S256x256) bitsLt_bf16_f32 : FVec Ideal S256x256 .bf16) = x3 := by
    rw [shapeCast_self]; rfl
  funext j
  unfold k0_pay1
  rw [e0, e1, e3, addf_apply, spread_apply]
  simp only [matmul]
  rw [matmul_zero_apply _ d256_plain]
  unfold layer
  refine congrArg (· + x4 (biasIdx j)) (congrArg (fun h => mm h x3 j) (funext fun i => ?_))
  rw [truncf_apply, maximumf_apply, addf_apply, spread_apply, zero_apply, matmul_zero_apply _ d128_plain]
  rfl

/-- The second kernel's stored value is the layer of its loaded blocks (input width 256). -/
theorem pay1_eq (x0 : Vec Ideal S2000x256 .f32) (x1 : Vec Ideal S256x256 .f32) (x2 : Vec Ideal S1x256 .f32)
    (x3 : Vec Ideal S256x256 .f32) (x4 : Vec Ideal S1x256 .f32) :
    k1_pay1 (F := Ideal) x0 x1 x2 x3 x4 = layer x0 x1 x2 x3 x4 := by
  have e0 : (truncf .bf16 (shapeCast S2000x256 x0 shapeCasts_S2000x256_S2000x256) bitsLt_bf16_f32 : FVec Ideal S2000x256 .bf16) = x0 := by
    rw [shapeCast_self]; rfl
  have e1 : (truncf .bf16 (shapeCast S256x256 x1 shapeCasts_S256x256_S256x256) bitsLt_bf16_f32 : FVec Ideal S256x256 .bf16) = x1 := by
    rw [shapeCast_self]; rfl
  have e3 : (truncf .bf16 (shapeCast S256x256 x3 shapeCasts_S256x256_S256x256) bitsLt_bf16_f32 : FVec Ideal S256x256 .bf16) = x3 := by
    rw [shapeCast_self]; rfl
  funext j
  unfold k1_pay1
  rw [e0, e1, e3, addf_apply, spread_apply]
  simp only [matmul]
  rw [matmul_zero_apply _ d256_plain]
  unfold layer
  refine congrArg (· + x4 (biasIdx j)) (congrArg (fun h => mm h x3 j) (funext fun i => ?_))
  rw [truncf_apply, maximumf_apply, addf_apply, spread_apply, zero_apply, matmul_zero_apply _ d256_plain]
  rfl

/-- The block the first kernel's body leaves in its output buffer. -/
theorem out0_eq (x0 : Vec Ideal S2000x128 .f32) (x1 : Vec Ideal S128x256 .f32) (x2 : Vec Ideal S1x256 .f32)
    (x3 : Vec Ideal S256x256 .f32) (x4 : Vec Ideal S1x256 .f32) :
    out0_5 (F := Ideal) x0 x1 x2 x3 x4 = layer x0 x1 x2 x3 x4 := by
  unfold out0_5
  rw [View.canon_unit_zero origin]
  simp only [View.ld_unit_zero (S := S2000x128) origin, View.ld_unit_zero (S := S128x256) origin,
    View.ld_unit_zero (S := S1x256) origin, View.ld_unit_zero (S := S256x256) origin]
  exact pay0_eq x0 x1 x2 x3 x4

/-- The block the second kernel's body leaves in its output buffer. -/
theorem out1_eq (x0 : Vec Ideal S2000x256 .f32) (x1 : Vec Ideal S256x256 .f32) (x2 : Vec Ideal S1x256 .f32)
    (x3 : Vec Ideal S256x256 .f32) (x4 : Vec Ideal S1x256 .f32) :
    out1_5 (F := Ideal) x0 x1 x2 x3 x4 = layer x0 x1 x2 x3 x4 := by
  unfold out1_5
  rw [View.canon_unit_zero origin]
  simp only [View.ld_unit_zero (S := S2000x256) origin, View.ld_unit_zero (S := S256x256) origin,
    View.ld_unit_zero (S := S1x256) origin]
  exact pay1_eq x0 x1 x2 x3 x4

end Cert.KernelIdeal.Block

end
-- ==== Proof.KernelArrays.lean ====
/-
  From blocks to arrays: what each kernel region leaves in its output array.

  A region runs its body at 25 grid points; point t stages rows 2000 t … 2000 t + 1999 of the input, the two weight matrices
  and the two bias rows whole, and writes back rows 2000 t … 2000 t + 1999 of the output.  The body computes the layer of its
  row block (KernelBlock.lean), a row of the layer depends on the matching input row only (Layer.lean), and the 25 row
  blocks tile the 50000 rows; so the output array ends at the layer of the whole arrays the region finds.
-/
import proofs.«137430_j395136991531_2_alg».proof.Proof.KernelBlock
import Idealize.ShloMosaic.Lib.Pipeline.Value

set_option maxRecDepth 16384

noncomputable section

namespace Cert.KernelIdeal.Arrays

open Cert.KernelIdeal Cert.KernelIdeal.Gen Cert.KernelIdeal.GenP Cert.KernelIdeal.Block
open Idealize.ShloMosaic Idealize.ShloMosaic.TcCoe Idealize.ShloMosaic.ValueIdx Idealize.SL.Sem
open Idealize.ShloMosaic.Pipeline (Dat Cfg Window)
open Cert.Layer Cert.Lib.PlainDot

/-! ## Region 0 -/

section Region0
variable (V : (c : Dev nD) → (b : Ref sig .tc) → Buf (Elt Ideal) ((c : Thread nD τ).loc b))

/-- The printed index maps, decided over the grid: the input's and the output's row block is the point's number, every
    other block index is 0. -/
theorem idx_facts0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first weight matrix is staged whole at every point. -/
theorem whole0_1 (c : Dev nD) (t : Fin cfg0.N) : iblk0 V c 1 t = V c main_v15 := by
  obtain ⟨-, -, -, -, e0, e1, -⟩ := idx_facts0 t
  funext y
  show V c main_v15 (((cfg0.win 1).blk t).view.emb y) = V c main_v15 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega
/-- The first bias row is staged whole at every point. -/
theorem whole0_2 (c : Dev nD) (t : Fin cfg0.N) : iblk0 V c 2 t = V c main_v17 := by
  obtain ⟨-, -, -, -, -, -, e0, e1, -⟩ := idx_facts0 t
  funext y
  show V c main_v17 (((cfg0.win 2).blk t).view.emb y) = V c main_v17 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega
/-- The second weight matrix is staged whole at every point. -/
theorem whole0_3 (c : Dev nD) (t : Fin cfg0.N) : iblk0 V c 3 t = V c main_v16 := by
  obtain ⟨-, -, -, -, -, -, -, -, e0, e1, -⟩ := idx_facts0 t
  funext y
  show V c main_v16 (((cfg0.win 3).blk t).view.emb y) = V c main_v16 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
/-- The second bias row is staged whole at every point. -/
theorem whole0_4 (c : Dev nD) (t : Fin cfg0.N) : iblk0 V c 4 t = V c main_v18 := by
  obtain ⟨-, -, -, -, -, -, -, -, -, -, e0, e1⟩ := idx_facts0 t
  funext y
  show V c main_v18 (((cfg0.win 4).blk t).view.emb y) = V c main_v18 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The array region 0 leaves: the layer of the arrays it finds. -/
def whole0 (c : Dev nD) : S50000x256.Idx → Elt Ideal .f32 :=
  layer (R := 50000) (K := 128) (H := 256) (H2 := 256) (V c main_v14) (V c main_v15) (V c main_v17) (V c main_v16) (V c main_v18)

/-- WHAT POINT t WRITES BACK is rows 2000 t … 2000 t + 1999 of the layer of the whole arrays: the body computes the layer
    of its row block, and a row of the layer depends on the matching input row only. -/
theorem flushed0_eq (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5, out0_eq, whole0_1, whole0_2, whole0_3, whole0_4]
  obtain ⟨e0, e1, e2, e3, -⟩ := idx_facts0 t
  funext y
  show layer (R := 2000) (K := 128) (H := 256) (H2 := 256) (iblk0 V c 0 t) (V c main_v15) (V c main_v17) (V c main_v16) (V c main_v18) y
      = layer (R := 50000) (K := 128) (H := 256) (H2 := 256) (V c main_v14) (V c main_v15) (V c main_v17) (V c main_v16) (V c main_v18) (((cfg0.win 5).blk t).view.emb y)
  refine layer_rows _ _ _ _ _ _ _ _ (fun k => ?_) ?_
  · show V c main_v14 (((cfg0.win 0).blk t).view.emb (rowIdx y k)) = V c main_v14 (rowIdx (((cfg0.win 5).blk t).view.emb y) k)
    refine congrArg _ (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 128 + 1 * k.val = k.val; omega
  · show (y 1).val = win0_5.index t (1 : Fin 2) * 256 + 1 * (y 1).val; omega

/-- An index of the output array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- Every row r of the output is written by point r / 2000. -/
theorem cover0 (i : S50000x256.Idx) : ∃ t : Fin cfg0.N, (cfg0.win 5).flush t = true ∧ i ∈ ((cfg0.win 5).blk t).view.set := by
  have hN : cfg0.N = 25 := N_0
  have h0 : (i 0).val < 50000 := (i 0).isLt
  have h1 : (i 1).val < 256 := (i 1).isLt
  refine ⟨⟨(i 0).val / 2000, by rw [hN]; omega⟩, flush0_5 _, ?_⟩
  rw [mem_blk0]
  obtain ⟨-, -, e2, e3, -⟩ := idx_facts0 ⟨(i 0).val / 2000, by rw [hN]; omega⟩
  intro a
  match a with
  | ⟨0, _⟩ =>
    show win0_5.index ⟨(i 0).val / 2000, _⟩ (0 : Fin 2) * 2000 ≤ (i 0).val ∧ (i 0).val < win0_5.index ⟨(i 0).val / 2000, _⟩ (0 : Fin 2) * 2000 + 2000
    rw [e2]; show (i 0).val / 2000 * 2000 ≤ (i 0).val ∧ (i 0).val < (i 0).val / 2000 * 2000 + 2000; omega
  | ⟨1, _⟩ =>
    show win0_5.index ⟨(i 0).val / 2000, _⟩ (1 : Fin 2) * 256 ≤ (i 1).val ∧ (i 1).val < win0_5.index ⟨(i 0).val / 2000, _⟩ (1 : Fin 2) * 256 + 256
    rw [e3]; omega

/-- THE ARRAY after region 0: the layer of the arrays the region finds. -/
theorem final0 (c : Dev nD) : (dat0 V c).arrAt 5 cfg0.N = whole0 V c :=
  (dat0 V c).arrAt_eq_of_cover 5 (whole0 V c) (fun t _ => flushed0_eq V c t) (cover0)

end Region0

/-! ## Region 1 -/

section Region1
variable (V : (c : Dev nD) → (b : Ref sig .tc) → Buf (Elt Ideal) ((c : Thread nD τ).loc b))

/-- The printed index maps, decided over the grid: the input's and the output's row block is the point's number, every
    other block index is 0. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The first weight matrix is staged whole at every point. -/
theorem whole1_1 (c : Dev nD) (t : Fin cfg1.N) : iblk1 V c 1 t = V c main_v33 := by
  obtain ⟨-, -, -, -, e0, e1, -⟩ := idx_facts1 t
  funext y
  show V c main_v33 (((cfg1.win 1).blk t).view.emb y) = V c main_v33 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega
/-- The first bias row is staged whole at every point. -/
theorem whole1_2 (c : Dev nD) (t : Fin cfg1.N) : iblk1 V c 2 t = V c main_v35 := by
  obtain ⟨-, -, -, -, -, -, e0, e1, -⟩ := idx_facts1 t
  funext y
  show V c main_v35 (((cfg1.win 2).blk t).view.emb y) = V c main_v35 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega
/-- The second weight matrix is staged whole at every point. -/
theorem whole1_3 (c : Dev nD) (t : Fin cfg1.N) : iblk1 V c 3 t = V c main_v34 := by
  obtain ⟨-, -, -, -, -, -, -, -, e0, e1, -⟩ := idx_facts1 t
  funext y
  show V c main_v34 (((cfg1.win 3).blk t).view.emb y) = V c main_v34 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega
/-- The second bias row is staged whole at every point. -/
theorem whole1_4 (c : Dev nD) (t : Fin cfg1.N) : iblk1 V c 4 t = V c main_v36 := by
  obtain ⟨-, -, -, -, -, -, -, -, -, -, e0, e1⟩ := idx_facts1 t
  funext y
  show V c main_v36 (((cfg1.win 4).blk t).view.emb y) = V c main_v36 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- The array region 1 leaves: the layer of the arrays it finds. -/
def whole1 (c : Dev nD) : S50000x256.Idx → Elt Ideal .f32 :=
  layer (R := 50000) (K := 256) (H := 256) (H2 := 256) (V c main_v32) (V c main_v33) (V c main_v35) (V c main_v34) (V c main_v36)

/-- WHAT POINT t WRITES BACK is rows 2000 t … 2000 t + 1999 of the layer of the whole arrays: the body computes the layer
    of its row block, and a row of the layer depends on the matching input row only. -/
theorem flushed1_eq (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5, out1_eq, whole1_1, whole1_2, whole1_3, whole1_4]
  obtain ⟨e0, e1, e2, e3, -⟩ := idx_facts1 t
  funext y
  show layer (R := 2000) (K := 256) (H := 256) (H2 := 256) (iblk1 V c 0 t) (V c main_v33) (V c main_v35) (V c main_v34) (V c main_v36) y
      = layer (R := 50000) (K := 256) (H := 256) (H2 := 256) (V c main_v32) (V c main_v33) (V c main_v35) (V c main_v34) (V c main_v36) (((cfg1.win 5).blk t).view.emb y)
  refine layer_rows _ _ _ _ _ _ _ _ (fun k => ?_) ?_
  · show V c main_v32 (((cfg1.win 0).blk t).view.emb (rowIdx y k)) = V c main_v32 (rowIdx (((cfg1.win 5).blk t).view.emb y) k)
    refine congrArg _ (funext fun a => Fin.ext ?_)
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 256 + 1 * k.val = k.val; omega
  · show (y 1).val = win1_5.index t (1 : Fin 2) * 256 + 1 * (y 1).val; omega

/-- An index of the output array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v37).slice (win1_5.rect t)).set ↔ _
  rw [View.set_slice_whole, Rect.mem_set_unit]
  exact Iff.rfl

/-- Every row r of the output is written by point r / 2000. -/
theorem cover1 (i : S50000x256.Idx) : ∃ t : Fin cfg1.N, (cfg1.win 5).flush t = true ∧ i ∈ ((cfg1.win 5).blk t).view.set := by
  have hN : cfg1.N = 25 := N_1
  have h0 : (i 0).val < 50000 := (i 0).isLt
  have h1 : (i 1).val < 256 := (i 1).isLt
  refine ⟨⟨(i 0).val / 2000, by rw [hN]; omega⟩, flush1_5 _, ?_⟩
  rw [mem_blk1]
  obtain ⟨-, -, e2, e3, -⟩ := idx_facts1 ⟨(i 0).val / 2000, by rw [hN]; omega⟩
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [e2]; show (i 0).val / 2000 * 2000 ≤ (i 0).val ∧ (i 0).val < (i 0).val / 2000 * 2000 + 2000; omega
  | ⟨1, _⟩ =>
    show win1_5.index ⟨(i 0).val / 2000, _⟩ (1 : Fin 2) * 256 ≤ (i 1).val ∧ (i 1).val < win1_5.index ⟨(i 0).val / 2000, _⟩ (1 : Fin 2) * 256 + 256
    rw [e3]; omega

/-- THE ARRAY after region 1: the layer of the arrays the region finds. -/
theorem final1 (c : Dev nD) : (dat1 V c).arrAt 5 cfg1.N = whole1 V c :=
  (dat1 V c).arrAt_eq_of_cover 5 (whole1 V c) (fun t _ => flushed1_eq V c t) (cover1)

end Region1

end Cert.KernelIdeal.Arrays

end
-- ==== Proof.Row.lean ====
/-
  A vector of length H seen as an array of one row: entry (0, c) is entry c.  Both programs make the layer's bias such a
  row — one by reshaping the vector, the other by broadcasting it along a new leading axis.
-/
import Idealize.ShloMosaic.PureOps.Ideal.Laws
import Idealize.ShloMosaic.Lib.ValueIdx

noncomputable section

namespace Cert.Layer

open Idealize.ShloMosaic

/-- The vector `b` as a one-row array. -/
def rowOf {H : Nat} (b : (⟨1, ![H]⟩ : Shape).Idx → EReal) : (⟨2, ![1, H]⟩ : Shape).Idx → EReal :=
  fun i => b (fun a => match a with
    | ⟨0, _⟩ => ⟨(i 1).val, (i 1).isLt⟩)

end Cert.Layer

end
-- ==== Proof.RefLayer.lean ====
/-
  The reference's dense layers are the layer function of Layer.lean.

  The reference computes a layer on whole arrays: z times the transposed first weight matrix, plus the first bias spread over
  the rows, the maximum with zero, times the transposed second weight matrix, plus the second bias.  Read entry by entry that is
  `Cert.Layer.layer` of the same arrays with each bias vector as a one-row array.
-/
import proofs.«137430_j395136991531_2_alg».proof.Proof.Gen.ReferenceIdeal
import proofs.«137430_j395136991531_2_alg».proof.Proof.Layer
import proofs.«137430_j395136991531_2_alg».proof.Proof.Row
import Idealize.ShloMosaic.Lib.Pipeline.Value
import Idealize.ShloMosaic.Lib.ValueIdx

noncomputable section

namespace Cert.ReferenceIdeal.Layers

open Cert.ReferenceIdeal Idealize.ShloMosaic Idealize.ShloMosaic.ValueIdx Cert.Layer Cert.Lib.PlainDot
open Facts₀ Facts

variable [Facts]

theorem d128_plain : dot_S50000x128_S128x256_S50000x256_1_0_0_1_n_n = DotDims.plain 50000 128 256 := rfl
theorem d256_plain : dot_S50000x256_S256x256_S50000x256_1_0_0_1_n_n = DotDims.plain 50000 256 256 := rfl

/-- A bias vector made a row and spread over the 50000 rows, at (r, c), is its entry c. -/
theorem bias_apply (b : FVec Ideal S256 .f32) (j : S50000x256.Idx) :
    broadcastInDim S50000x256 ![0, 1] bcast_S1x256_S50000x256_0_1 (broadcastInDim S1x256 ![1] bcast_S256_S1x256_1 b) j
      = rowOf b (biasIdx j) := by
  rw [broadcastInDim_apply _ bcast_S1x256_S50000x256_0_1 _ j (biasIdx j) (fun a => by
    match a with
    | ⟨0, _⟩ => show (0 : Nat) = if (1 : Nat) = 1 then 0 else (j 0).val; rw [if_pos rfl]
    | ⟨1, _⟩ => show (j 1).val = if (256 : Nat) = 1 then 0 else (j 1).val; rw [if_neg (by decide)])]
  unfold rowOf
  exact broadcastInDim_apply _ bcast_S256_S1x256_1 b (biasIdx j) _ (fun a => by
    match a with
    | ⟨0, _⟩ => show (j 1).val = if (256 : Nat) = 1 then 0 else (j 1).val; rw [if_neg (by decide)])

/-- The zero constant spread over the array is 0 everywhere. -/
theorem zeros_apply (j : S50000x256.Idx) :
    (broadcastInDim S50000x256 ![] bcast_S_S50000x256 (constant (F := Ideal) S_ .f32 0x00000000#32) : FVec Ideal S50000x256 .f32) j = 0 := by
  rw [broadcastInDim_apply _ bcast_S_S50000x256 _ j (fun a => a.elim0) (fun a => a.elim0), constant_apply]
  exact Ideal.ofBits_zero_f32

/-- The reference's layer with input width 128: its two `dot_general`s, the bias vectors spread over the rows and the
    maximum with zero are the layer of the same arrays, the biases as one-row arrays. -/
theorem mlp128_eq (z : FVec Ideal S50000x128 .f32) (wa : FVec Ideal S128x256 .f32) (ba : FVec Ideal S256 .f32)
    (wb : FVec Ideal S256x256 .f32) (bb : FVec Ideal S256 .f32) :
    addf (Host.dotGeneral dot_S50000x256_S256x256_S50000x256_1_0_0_1_n_n none
        (maximumf (addf (Host.dotGeneral dot_S50000x128_S128x256_S50000x256_1_0_0_1_n_n none z wa)
            (broadcastInDim S50000x256 ![0, 1] bcast_S1x256_S50000x256_0_1 (broadcastInDim S1x256 ![1] bcast_S256_S1x256_1 ba)))
          (broadcastInDim S50000x256 ![] bcast_S_S50000x256 (constant S_ .f32 0x00000000#32))) wb)
      (broadcastInDim S50000x256 ![0, 1] bcast_S1x256_S50000x256_0_1 (broadcastInDim S1x256 ![1] bcast_S256_S1x256_1 bb))
      = layer (R := 50000) (K := 128) (H := 256) (H2 := 256) z wa (rowOf ba) wb (rowOf bb) := by
  funext j
  rw [addf_apply, bias_apply]
  simp only [Host.dotGeneral]
  rw [dotGeneral_apply _ d256_plain]
  unfold layer
  refine congrArg (· + rowOf bb (biasIdx j)) (congrArg (fun h => mm h wb j) (funext fun i => ?_))
  rw [maximumf_apply, addf_apply, bias_apply, zeros_apply, dotGeneral_apply _ d128_plain]
  rfl

/-- The reference's layer with input width 256: its two `dot_general`s, the bias vectors spread over the rows and the
    maximum with zero are the layer of the same arrays, the biases as one-row arrays. -/
theorem mlp256_eq (z : FVec Ideal S50000x256 .f32) (wa : FVec Ideal S256x256 .f32) (ba : FVec Ideal S256 .f32)
    (wb : FVec Ideal S256x256 .f32) (bb : FVec Ideal S256 .f32) :
    addf (Host.dotGeneral dot_S50000x256_S256x256_S50000x256_1_0_0_1_n_n none
        (maximumf (addf (Host.dotGeneral dot_S50000x256_S256x256_S50000x256_1_0_0_1_n_n none z wa)
            (broadcastInDim S50000x256 ![0, 1] bcast_S1x256_S50000x256_0_1 (broadcastInDim S1x256 ![1] bcast_S256_S1x256_1 ba)))
          (broadcastInDim S50000x256 ![] bcast_S_S50000x256 (constant S_ .f32 0x00000000#32))) wb)
      (broadcastInDim S50000x256 ![0, 1] bcast_S1x256_S50000x256_0_1 (broadcastInDim S1x256 ![1] bcast_S256_S1x256_1 bb))
      = layer (R := 50000) (K := 256) (H := 256) (H2 := 256) z wa (rowOf ba) wb (rowOf bb) := by
  funext j
  rw [addf_apply, bias_apply]
  simp only [Host.dotGeneral]
  rw [dotGeneral_apply _ d256_plain]
  unfold layer
  refine congrArg (· + rowOf bb (biasIdx j)) (congrArg (fun h => mm h wb j) (funext fun i => ?_))
  rw [maximumf_apply, addf_apply, bias_apply, zeros_apply, dotGeneral_apply _ d256_plain]
  rfl

end Cert.ReferenceIdeal.Layers

end
-- ==== Proof.KernelValue.lean ====
/-
  The idealized kernel's result, boundary by boundary, in the reference's own terms.

  The reference computes, in order: z1 = x + (sum of x over incoming edges); h1 = layer z1; z2 = h1 + (sum of h1 over incoming
  edges); h2 = layer z2; the per-graph mean of h2 times the classifier plus its bias.  The kernel's host stretches are the same
  operations (the second edge sum gathers from a copy of h1 in a narrower float format and converts back, the identity at the
  ideal values), and each of its two regions leaves the layer of the arrays it finds (KernelArrays.lean).  So the buffer
  contents at each boundary of the kernel's run are the reference's stage values of the kernel's own arguments: z1 and the
  transposed weights and bias rows at the first region's entry, h1 at its exit, z2 at the second region's entry, h2 at its
  exit, and the result at the end.
-/
import proofs.«137430_j395136991531_2_alg».proof.Proof.KernelArrays
import proofs.«137430_j395136991531_2_alg».proof.Proof.KernelRun
import proofs.«137430_j395136991531_2_alg».proof.Proof.RefLayer
import proofs.«137430_j395136991531_2_alg».proof.Proof.Gen.ReferenceIdeal.Read
import Idealize.ShloMosaic.Lib.StableHlo.Run

set_option maxRecDepth 16384

noncomputable section

/-! ## The reference's two layers, in the layer function's terms -/

namespace Cert.ReferenceIdeal.Layers

open Cert.ReferenceIdeal Cert.ReferenceIdeal.Read Idealize.ShloMosaic Cert.Layer

/-- The reference's h1 is the layer of its z1, its transposed weights and its biases as rows. -/
theorem h1_eq (x0 : (⟨S50000x128, .f32⟩ : BufTy).Contents (Elt Ideal)) (x1 : (⟨S2x800000, .i32⟩ : BufTy).Contents (Elt Ideal))
    (x3 : (⟨S256x128, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v25 (F := Ideal) x0 x1 x3 x4 x5 x6
      = layer (R := 50000) (K := 128) (H := 256) (H2 := 256) (val_main_v14 (F := Ideal) x0 x1) (val_main_v15 (F := Ideal) x3) (rowOf x4) (val_main_v21 (F := Ideal) x5) (rowOf x6) := by
  unfold val_main_v25 val_main_v22 val_main_v24 val_main_v23 val_main_v20 val_main_v19 val_main_v18 val_main_v17 val_main_v16 val_main_call0_v0 val_main_call0_cst
  exact mlp128_eq _ _ _ _ _

/-- The reference's h2 is the layer of its z2, its transposed weights and its biases as rows. -/
theorem h2_eq (x0 : (⟨S50000x128, .f32⟩ : BufTy).Contents (Elt Ideal)) (x1 : (⟨S2x800000, .i32⟩ : BufTy).Contents (Elt Ideal))
    (x3 : (⟨S256x128, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal)) :
    val_main_v51 (F := Ideal) x0 x1 x3 x4 x5 x6 x7 x8 x9 x10
      = layer (R := 50000) (K := 256) (H := 256) (H2 := 256) (val_main_v40 (F := Ideal) x0 x1 x3 x4 x5 x6) (val_main_v41 (F := Ideal) x7) (rowOf x8) (val_main_v47 (F := Ideal) x9) (rowOf x10) := by
  unfold val_main_v51 val_main_v48 val_main_v50 val_main_v49 val_main_v46 val_main_v45 val_main_v44 val_main_v43 val_main_v42 val_main_call1_v0 val_main_call1_cst
  exact mlp256_eq _ _ _ _ _

end Cert.ReferenceIdeal.Layers

namespace Cert.KernelIdeal.Whole

open Cert.KernelIdeal Cert.KernelIdeal.Gen Cert.KernelIdeal.GenP Cert.KernelIdeal.Arrays
open Idealize.ShloMosaic Idealize.ShloMosaic.TcCoe Idealize.SL.Sem Idealize.ShloMosaic.StableHlo
open Cert.Layer Cert.ReferenceIdeal.Layers
open Cert.ReferenceIdeal.Read (val_main_v14 val_main_v15 val_main_v21 val_main_v25 val_main_v27 val_main_v29 val_main_v40 val_main_v41 val_main_v47 val_main_v51 val_main_v68)

variable (m : (ℓ : Loc nD τ sig) → Buf (Elt Ideal) ℓ) (ρ : Dev nD → PrngReg)

/-- A bias vector reshaped to one row is that vector as a row. -/
theorem reshape_row (b : (⟨S256, .f32⟩ : BufTy).Contents (Elt Ideal)) :
    shapeCast S1x256 b shapeCasts_S256_S1x256 = rowOf b := by
  funext i
  unfold rowOf
  refine shapeCast_apply b _ i _ ?_
  rw [Shape.rowMajor_val_one, Shape.rowMajor_val_two]
  have h0 : (i 0).val < 1 := (i 0).isLt
  show (i 1).val = (i 0).val * 256 + (i 1).val
  omega

/-! ## At the first region's entry (after the first host stretch) -/

set_option maxHeartbeats 4000000 in
theorem W1_v14 (c : Dev nD) : W1 m ρ c (Proc.devRef .tc main_v14) = val_main_v14 (F := Ideal) (m ((c : Thread nD τ).loc main_arg0)) (m ((c : Thread nD τ).loc main_arg1)) := by
  show StableHlo.after hostOps0 (W0 m ρ c) (Proc.devRef .tc main_v14) = _
  after_results_simp
  rfl
theorem W1_v15 (c : Dev nD) : W1 m ρ c (Proc.devRef .tc main_v15) = val_main_v15 (F := Ideal) (m ((c : Thread nD τ).loc main_arg3)) := by
  show StableHlo.after hostOps0 (W0 m ρ c) (Proc.devRef .tc main_v15) = _
  after_results
  rfl
theorem W1_v16 (c : Dev nD) : W1 m ρ c (Proc.devRef .tc main_v16) = val_main_v21 (F := Ideal) (m ((c : Thread nD τ).loc main_arg5)) := by
  show StableHlo.after hostOps0 (W0 m ρ c) (Proc.devRef .tc main_v16) = _
  after_results
  rfl
theorem W1_v17 (c : Dev nD) : W1 m ρ c (Proc.devRef .tc main_v17) = rowOf (m ((c : Thread nD τ).loc main_arg4)) := by
  show StableHlo.after hostOps0 (W0 m ρ c) (Proc.devRef .tc main_v17) = _
  after_results
  exact reshape_row _
theorem W1_v18 (c : Dev nD) : W1 m ρ c (Proc.devRef .tc main_v18) = rowOf (m ((c : Thread nD τ).loc main_arg6)) := by
  show StableHlo.after hostOps0 (W0 m ρ c) (Proc.devRef .tc main_v18) = _
  after_results
  exact reshape_row _
theorem W1_v1 (c : Dev nD) : W1 m ρ c (Proc.devRef .tc main_v1) = val_main_v27 (F := Ideal) (m ((c : Thread nD τ).loc main_arg1)) := by
  show StableHlo.after hostOps0 (W0 m ρ c) (Proc.devRef .tc main_v1) = _
  after_results
  rfl
theorem W1_v3 (c : Dev nD) : W1 m ρ c (Proc.devRef .tc main_v3) = val_main_v29 (F := Ideal) (m ((c : Thread nD τ).loc main_arg1)) := by
  show StableHlo.after hostOps0 (W0 m ρ c) (Proc.devRef .tc main_v3) = _
  after_results
  rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results
theorem W1_arg7 (c : Dev nD) : W1 m ρ c (Proc.devRef .tc main_arg7) = (m ((c : Thread nD τ).loc main_arg7)) := by
  show StableHlo.after hostOps0 (W0 m ρ c) (Proc.devRef .tc main_arg7) = _
  after_results
theorem W1_arg8 (c : Dev nD) : W1 m ρ c (Proc.devRef .tc main_arg8) = (m ((c : Thread nD τ).loc main_arg8)) := by
  show StableHlo.after hostOps0 (W0 m ρ c) (Proc.devRef .tc main_arg8) = _
  after_results
theorem W1_arg9 (c : Dev nD) : W1 m ρ c (Proc.devRef .tc main_arg9) = (m ((c : Thread nD τ).loc main_arg9)) := by
  show StableHlo.after hostOps0 (W0 m ρ c) (Proc.devRef .tc main_arg9) = _
  after_results
theorem W1_arg10 (c : Dev nD) : W1 m ρ c (Proc.devRef .tc main_arg10) = (m ((c : Thread nD τ).loc main_arg10)) := by
  show StableHlo.after hostOps0 (W0 m ρ c) (Proc.devRef .tc main_arg10) = _
  after_results
theorem W1_arg11 (c : Dev nD) : W1 m ρ c (Proc.devRef .tc main_arg11) = (m ((c : Thread nD τ).loc main_arg11)) := by
  show StableHlo.after hostOps0 (W0 m ρ c) (Proc.devRef .tc main_arg11) = _
  after_results
theorem W1_arg12 (c : Dev nD) : W1 m ρ c (Proc.devRef .tc main_arg12) = (m ((c : Thread nD τ).loc main_arg12)) := by
  show StableHlo.after hostOps0 (W0 m ρ c) (Proc.devRef .tc main_arg12) = _
  after_results

/-! ## At the first region's exit -/

/-- The first region leaves h1. -/
theorem W2_v19 (c : Dev nD) : W2 m ρ c (Proc.devRef .tc main_v19) = val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [h1_eq]
  refine (W2_arr m ρ c 5).trans ((final0 (V1 m ρ) c).trans ?_)
  unfold whole0
  show layer (R := 50000) (K := 128) (H := 256) (H2 := 256) (W1 m ρ c (Proc.devRef .tc main_v14)) (W1 m ρ c (Proc.devRef .tc main_v15))
      (W1 m ρ c (Proc.devRef .tc main_v17)) (W1 m ρ c (Proc.devRef .tc main_v16)) (W1 m ρ c (Proc.devRef .tc main_v18)) = _
  rw [W1_v14, W1_v15, W1_v16, W1_v17, W1_v18]
theorem W2_v1 (c : Dev nD) : W2 m ρ c (Proc.devRef .tc main_v1) = val_main_v27 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v29 (F := Ideal) (m ((c : Thread nD τ).loc main_arg1)) :=
  (W2_of_ne m ρ c main_v3 (by decide)).trans (W1_v3 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)

/-! ## At the second region's entry (after the second host stretch) -/

set_option maxHeartbeats 4000000 in
/-- The second stretch makes z2 from h1: the edge sum gathers from h1's copy in the narrower format and converts back, the
    identity at the ideal values. -/
theorem W3_v32 (c : Dev nD) : W3 m ρ c (Proc.devRef .tc main_v32) = val_main_v40 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v32) = _
  after_results_simp
  rw [W2_v19, W2_v1, W2_v3]
  rfl
theorem W3_v33 (c : Dev nD) : W3 m ρ c (Proc.devRef .tc main_v33) = val_main_v41 (F := Ideal) (m ((c : Thread nD τ).loc main_arg7)) := by
  show StableHlo.after hostOps1 (W2 m ρ c) (Proc.devRef .tc main_v33) = _
  after_results
  rw [W2_arg7]
  rfl
theorem W3_v34 (c : Dev nD) : W3 m ρ c (Proc.devRef .tc main_v34) = val_main_v47 (F := Ideal) (m ((c : Thread nD τ).loc main_arg9)) := by
  show StableHlo.after hostOps1 (W2 m ρ c) (Proc.devRef .tc main_v34) = _
  after_results
  rw [W2_arg9]
  rfl
theorem W3_v35 (c : Dev nD) : W3 m ρ c (Proc.devRef .tc main_v35) = rowOf (m ((c : Thread nD τ).loc main_arg8)) := by
  show StableHlo.after hostOps1 (W2 m ρ c) (Proc.devRef .tc main_v35) = _
  after_results
  rw [W2_arg8]
  exact reshape_row _
theorem W3_v36 (c : Dev nD) : W3 m ρ c (Proc.devRef .tc main_v36) = rowOf (m ((c : Thread nD τ).loc main_arg10)) := by
  show StableHlo.after hostOps1 (W2 m ρ c) (Proc.devRef .tc main_v36) = _
  after_results
  rw [W2_arg10]
  exact reshape_row _
theorem W3_arg2 (c : Dev nD) : W3 m ρ c (Proc.devRef .tc main_arg2) = (m ((c : Thread nD τ).loc main_arg2)) := by
  show StableHlo.after hostOps1 (W2 m ρ c) (Proc.devRef .tc main_arg2) = _
  after_results
  exact W2_arg2 m ρ c
theorem W3_arg11 (c : Dev nD) : W3 m ρ c (Proc.devRef .tc main_arg11) = (m ((c : Thread nD τ).loc main_arg11)) := by
  show StableHlo.after hostOps1 (W2 m ρ c) (Proc.devRef .tc main_arg11) = _
  after_results
  exact W2_arg11 m ρ c
theorem W3_arg12 (c : Dev nD) : W3 m ρ c (Proc.devRef .tc main_arg12) = (m ((c : Thread nD τ).loc main_arg12)) := by
  show StableHlo.after hostOps1 (W2 m ρ c) (Proc.devRef .tc main_arg12) = _
  after_results
  exact W2_arg12 m ρ c

/-! ## At the second region's exit -/

/-- The second region leaves h2. -/
theorem W4_v37 (c : Dev nD) : W4 m ρ c (Proc.devRef .tc main_v37) = val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [h2_eq]
  refine (W4_arr m ρ c 5).trans ((final1 (V3 m ρ) c).trans ?_)
  unfold whole1
  show layer (R := 50000) (K := 256) (H := 256) (H2 := 256) (W3 m ρ c (Proc.devRef .tc main_v32)) (W3 m ρ c (Proc.devRef .tc main_v33))
      (W3 m ρ c (Proc.devRef .tc main_v35)) (W3 m ρ c (Proc.devRef .tc main_v34)) (W3 m ρ c (Proc.devRef .tc main_v36)) = _
  rw [W3_v32, W3_v33, W3_v34, W3_v35, W3_v36]
theorem W4_arg2 (c : Dev nD) : W4 m ρ c (Proc.devRef .tc main_arg2) = (m ((c : Thread nD τ).loc main_arg2)) :=
  (W4_of_ne m ρ c main_arg2 (by decide)).trans (W3_arg2 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)

/-! ## At the end -/

set_option maxHeartbeats 4000000 in
/-- The kernel's result is the reference's result function of the kernel's arguments. -/
theorem result_eq (c : Dev nD) : W5 m ρ c (Proc.devRef .tc main_v54)
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v54) = _
  after_results_simp
  rw [W4_v37, W4_arg2, W4_arg11, W4_arg12]
  rfl

end Cert.KernelIdeal.Whole

end
-- ==== Proof.RefTerm.lean ====
/-
  The reference's result as one term of the argument arrays (its generated run), read one operation at a time.
-/
import proofs.«137430_j395136991531_2_alg».proof.Proof.Gen.ReferenceIdeal.Read
-- ==== Proof.lean ====
/-
  A two-layer graph network (sum aggregation over edges, two dense layers per convolution, mean pooling per graph and a
  linear classifier) computed two ways: the kernel runs each convolution's two dense layers as one pass over 25 blocks of 2000
  node rows, on weights transposed beforehand and biases reshaped to rows, and keeps the edge sums, the pooling and the
  classifier as ordinary array operations; the reference is ordinary array operations throughout.

  At the ideal values the two agree entry by entry.  A block of rows of a dense layer is the layer of that block of rows
  (Layer.lean), the body of either pass computes exactly that (KernelBlock.lean), and the 25 blocks tile the 50000 rows
  (KernelArrays.lean), so each pass leaves the reference's layer of the arrays it is given (RefLayer.lean reads the reference's
  layer the same way).  Everything around the passes is the reference's own operations, but for a copy of the first layer's
  output in a narrower float format that the second edge sum gathers from and converts back: the identity at the ideal values.
  Followed through the run's boundaries (KernelRun.lean, KernelValue.lean) the kernel's result is the reference's result
  function of the same arguments.  No law of arithmetic is used beyond reading both programs entry by entry, so the
  precondition is not needed.  The idealization rewrote nothing, so there is nothing to preserve.
-/
import proofs.«137430_j395136991531_2_alg».proof.Defs
import proofs.«137430_j395136991531_2_alg».proof.Proof.Gen.Kernel
import proofs.«137430_j395136991531_2_alg».proof.Proof.Gen.Kernel.Skeleton
import proofs.«137430_j395136991531_2_alg».proof.Proof.PatchedKernelLaunch
import proofs.«137430_j395136991531_2_alg».proof.Proof.Gen.Kernel.Points
import proofs.«137430_j395136991531_2_alg».proof.Proof.PatchedKernelFrame
import proofs.«137430_j395136991531_2_alg».proof.Proof.Gen.KernelIdeal
import proofs.«137430_j395136991531_2_alg».proof.Proof.Gen.KernelIdeal.Skeleton
import proofs.«137430_j395136991531_2_alg».proof.Proof.PatchedKernelIdealLaunch
import proofs.«137430_j395136991531_2_alg».proof.Proof.Gen.KernelIdeal.Points
import proofs.«137430_j395136991531_2_alg».proof.Proof.PatchedKernelIdealFrame
import proofs.«137430_j395136991531_2_alg».proof.Proof.Gen.ReferenceIdeal
import proofs.«137430_j395136991531_2_alg».proof.Proof.Gen.Pre_finite_inputs
import proofs.«137430_j395136991531_2_alg».proof.Proof.Gen.ReferenceIdeal.Run
import proofs.«137430_j395136991531_2_alg».proof.Proof.Gen.ReferenceIdeal.Read
import proofs.«137430_j395136991531_2_alg».proof.Proof.KernelRun
import proofs.«137430_j395136991531_2_alg».proof.Proof.KernelValue
import proofs.«137430_j395136991531_2_alg».proof.Proof.RefTerm
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The idealized reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the reference's result function of the arguments they agree on. -/
theorem algebraic : Cert.algebraic_KernelIdeal_ReferenceIdeal := by
  intro m ρ m' ρ' _ hagree
  refine ⟨fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result_eq m ρ c), (h c).2⟩)
      (Cert.KernelIdeal.Whole.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v68_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
